-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S128 .f32) (main_arg5 : FVec F S128x5 .f32) (main_arg6 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x5 .f32 := Host.absf main_arg5
  let main_cst_8 : FVec F S_ .f32 := constant S_ .f32 0x7F800000#32
  let main_v25 : FVec F S128x5 .f32 := broadcastInDim S128x5 ![] bcast_S_S128x5 main_cst_8
  let main_v26 : IVec S128x5 1 := cmpf .olt main_v24 main_v25
  let main_c_9 : IVec S_ 1 := constantI S_ 1 1#1
  let main_v27 : IVec S_ 1 := (fun x v => Host.reduce IntOp.andi x v reducesTo_S128x5_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S10000 .f32) (main_arg1 : FVec F S1x128 .f32) (main_arg2 : FVec F S128 .f32) (main_arg3 : FVec F S128x128 .f32) (main_arg4 : FVec F S128 .f32) (main_arg5 : FVec F S128x5 .f32) (main_arg6 : FVec F S5 .f32) : IVec S_ 1 :=
  let main_v0 : FVec F S10000 .f32 := Host.absf main_arg0
  let main_cst : FVec F S_ .f32 := constant S_ .f32 0x7F800000#32
  let main_v1 : FVec F S10000 .f32 := broadcastInDim S10000 ![] bcast_S_S10000 main_cst
  let main_v2 : IVec S10000 1 := cmpf .olt main_v0 main_v1
  let main_c : IVec S_ 1 := constantI S_ 1 1#1
  let main_v3 : IVec S_ 1 := (fun x v => Host.reduce IntOp.andi x v reducesTo_S10000_S_d0 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S10000 : Shape := ⟨1, ![10000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S5x128 : Shape := ⟨2, ![5, 128]⟩
abbrev S5x10000 : Shape := ⟨2, ![5, 10000]⟩
abbrev S10000x1 : Shape := ⟨2, ![10000, 1]⟩
abbrev S10000x128 : Shape := ⟨2, ![10000, 128]⟩
abbrev S10000x5 : Shape := ⟨2, ![10000, 5]⟩
abbrev S1x5 : Shape := ⟨2, ![1, 5]⟩

abbrev nBuf : Space → Nat
  | .hbm => 10
  | .vmem => 8
  | .smem => 0
  | _ => 0

abbrev bufTy : (tb : Table) → Fin (tcTables nBuf tb) → BufTy
  | .hbm, ⟨0, _⟩ => ⟨S10000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S5x128, .f32⟩
  | .hbm, ⟨8, _⟩ => ⟨S5x10000, .f32⟩
  | .hbm, ⟨9, _⟩ => ⟨S10000x5, .f32⟩
  | .local _ .vmem, ⟨0, _⟩ => ⟨S10000, .f32⟩
  | .local _ .vmem, ⟨1, _⟩ => ⟨S1x128, .f32⟩
  | .local _ .vmem, ⟨2, _⟩ => ⟨S128, .f32⟩
  | .local _ .vmem, ⟨3, _⟩ => ⟨S128x128, .f32⟩
  | .local _ .vmem, ⟨4, _⟩ => ⟨S128, .f32⟩
  | .local _ .vmem, ⟨5, _⟩ => ⟨S5x128, .f32⟩
  | .local _ .vmem, ⟨6, _⟩ => ⟨S5, .f32⟩
  | .local _ .vmem, ⟨7, _⟩ => ⟨S5x10000, .f32⟩
  | _, _ => ⟨S10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x10000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  transposes_S128x5_S5x128_1_0 : S128x5.Transposes [1, 0] S5x128
  inb_S10000_S10000_0 : ∀ a, (![0] : Fin 1 → Nat) a + S10000.size a ≤ S10000.size a
  h_S10000 : 0 < S10000.numel
  shapeCasts_S10000_S10000x1 : S10000.ShapeCasts S10000x1
  inb_S1x128_S1x128_0_0 : ∀ a, (![0, 0] : Fin 2 → Nat) a + S1x128.size a ≤ S1x128.size a
  h_S1x128 : 0 < S1x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S5_S5_0 : ∀ a, (![0] : Fin 1 → Nat) a + S5.size a ≤ S5.size a
  h_S5 : 0 < S5.numel
  shapeCasts_S5_S1x5 : S5.ShapeCasts S1x5
  broadcasts_S1x5_S10000x5 : S1x5.Broadcasts S10000x5
  transposes_S10000x5_p1_0_S5x10000 : S10000x5.Transposes [1, 0] S5x10000
  inb_S5x10000_S5x10000_0_0 : ∀ a, (![0, 0] : Fin 2 → Nat) a + S5x10000.size a ≤ S5x10000.size a
  h_S5x10000 : 0 < S5x10000.numel
  transposes_S5x10000_S10000x5_1_0 : S5x10000.Transposes [1, 0] S10000x5
  dot_S10000x1_S1x128_S10000x128_1_0_0_1_n_n_wf : DotDims.WF S10000x1 S1x128 S10000x128 [1] [0] [0] [1] [] []
  dot_S10000x128_S128x128_S10000x128_1_0_0_1_n_n_wf : DotDims.WF S10000x128 S128x128 S10000x128 [1] [0] [0] [1] [] []
  dot_S10000x128_S5x128_S10000x5_1_1_0_0_n_n_wf : DotDims.WF S10000x128 S5x128 S10000x5 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S5x128_S10000x5_1_1_0_0_n_n : DotDims S10000x128 S5x128 S10000x5 where
  lhsContracting := [1]
  rhsContracting := [1]
  lhsNonContracting := [0]
  rhsNonContracting := [0]
  lhsBatch := []
  rhsBatch := []
  wf := dot_S10000x128_S5x128_S10000x5_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v0) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000 : Shape := ⟨1, ![10000]⟩
abbrev S1x128 : Shape := ⟨2, ![1, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S10000x1 : Shape := ⟨2, ![10000, 1]⟩
abbrev S10000x128 : Shape := ⟨2, ![10000, 128]⟩
abbrev S_ : Shape := ⟨0, ![]⟩
abbrev S10000x5 : Shape := ⟨2, ![10000, 5]⟩
abbrev S1x5 : Shape := ⟨2, ![1, 5]⟩

abbrev nBuf : Space → Nat
  | .hbm => 26
  | .vmem => 0
  | .smem => 0
  | _ => 0

abbrev bufTy : (tb : Table) → Fin (tcTables nBuf tb) → BufTy
  | .hbm, ⟨0, _⟩ => ⟨S10000, .f32⟩
  | .hbm, ⟨1, _⟩ => ⟨S1x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S10000x1, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x5, .f32⟩
  | .hbm, ⟨23, _⟩ => ⟨S1x5, .f32⟩
  | .hbm, ⟨24, _⟩ => ⟨S10000x5, .f32⟩
  | .hbm, ⟨25, _⟩ => ⟨S10000x5, .f32⟩
  | _, _ => ⟨S10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S5_S1x5_1 : S5.BroadcastsInDim S1x5 (![1] : Fin 1 → Fin S1x5.rank)
  bcast_S1x5_S10000x5_0_1 : S1x5.BroadcastsInDim S10000x5 (![0, 1] : Fin 2 → Fin S10000x5.rank)
  dot_S10000x1_S1x128_S10000x128_1_0_0_1_n_n_wf : DotDims.WF S10000x1 S1x128 S10000x128 [1] [0] [0] [1] [] []
  dot_S10000x128_S128x128_S10000x128_1_0_0_1_n_n_wf : DotDims.WF S10000x128 S128x128 S10000x128 [1] [0] [0] [1] [] []
  dot_S10000x128_S128x5_S10000x5_1_0_0_1_n_n_wf : DotDims.WF S10000x128 S128x5 S10000x5 [1] [0] [0] [1] [] []

variable [Facts₀]

def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x5_S10000x5_1_0_0_1_n_n : DotDims S10000x128 S128x5 S10000x5 where
  lhsContracting := [1]
  rhsContracting := [0]
  lhsNonContracting := [0]
  rhsNonContracting := [1]
  lhsBatch := []
  rhsBatch := []
  wf := dot_S10000x128_S128x5_S10000x5_1_0_0_1_n_n_wf

class Facts : Prop extends Facts₀ where

variable [Facts]
-- ==== Proof.Network.lean ====
/-
  The network both programs compute, as a function on the extended reals.

  A scalar time `t n` (n < 10000) goes through three affine layers, the first two followed by `max · 0`:

    hidden1 n j = max (Σ_{k<1}   t n           · W1[k, j] + b1 j) 0        (j < 128)
    hidden2 n j = max (Σ_{k<128} hidden1 n k   · W2[k, j] + b2 j) 0        (j < 128)
    output  n j =      Σ_{k<128} hidden2 n k   · W3[k, j] + b3 j           (j < 5)

  The first layer's product is written as the one-term sum over the single input feature, which is how a
  10000 × 1 by 1 × 128 matrix product reads. Sums are finite sums in the commutative monoid of the extended reals,
  so neither their order nor their grouping matters, and nothing here needs an entry to be finite.
-/
import Idealize.ShloMosaic.PureOps.Ideal
import Idealize.ShloMosaic.Lib.ValueIdx

noncomputable section

namespace Cert.Mlp

open Idealize.ShloMosaic Idealize.ShloMosaic.ValueIdx

variable (t : FVec Ideal ⟨1, ![10000]⟩ .f32) (w1 : FVec Ideal ⟨2, ![1, 128]⟩ .f32) (b1 : FVec Ideal ⟨1, ![128]⟩ .f32)
  (w2 : FVec Ideal ⟨2, ![128, 128]⟩ .f32) (b2 : FVec Ideal ⟨1, ![128]⟩ .f32)
  (w3 : FVec Ideal ⟨2, ![128, 5]⟩ .f32) (b3 : FVec Ideal ⟨1, ![5]⟩ .f32)

/-- Unit `j` of the first hidden layer at time `n`. -/
def hidden1 (n : Fin 10000) (j : Fin 128) : EReal :=
  max ((∑ k : Fin 1, t (ix1 n) * w1 (ix2 k j)) + b1 (ix1 j)) 0

/-- Unit `j` of the second hidden layer at time `n`. -/
def hidden2 (n : Fin 10000) (j : Fin 128) : EReal :=
  max ((∑ k : Fin 128, hidden1 t w1 b1 n k * w2 (ix2 k j)) + b2 (ix1 j)) 0

/-- Output `j` at time `n`. -/
def output (n : Fin 10000) (j : Fin 5) : EReal :=
  (∑ k : Fin 128, hidden2 t w1 b1 w2 b2 n k * w3 (ix2 k j)) + b3 (ix1 j)

/-- The first hidden layer as a 10000 × 128 array. -/
def hidden1s : FVec Ideal ⟨2, ![10000, 128]⟩ .f32 := fun i => hidden1 t w1 b1 (i 0) (i 1)

/-- The second hidden layer as a 10000 × 128 array. -/
def hidden2s : FVec Ideal ⟨2, ![10000, 128]⟩ .f32 := fun i => hidden2 t w1 b1 w2 b2 (i 0) (i 1)

/-- The result as a 10000 × 5 array. -/
def outputs : FVec Ideal ⟨2, ![10000, 5]⟩ .f32 := fun i => output t w1 b1 w2 b2 w3 b3 (i 0) (i 1)

theorem hidden1s_apply (n : Fin 10000) (j : Fin 128) : hidden1s t w1 b1 (ix2 n j) = hidden1 t w1 b1 n j := rfl
theorem hidden2s_apply (n : Fin 10000) (j : Fin 128) : hidden2s t w1 b1 w2 b2 (ix2 n j) = hidden2 t w1 b1 w2 b2 n j := rfl
theorem outputs_apply (n : Fin 10000) (j : Fin 5) : outputs t w1 b1 w2 b2 w3 b3 (ix2 n j) = output t w1 b1 w2 b2 w3 b3 n j := rfl

end Cert.Mlp

end
-- ==== Proof.KernelProducts.lean ====
/-
  The kernel body's three matrix products, read at one entry.

  Each is a `tpu.matmul` into a zero accumulator with ONE contracted axis, so at the extended reals its entry at
  row `n` and column `j` is the plain sum over the contracted coordinate `k` of left entry times right entry:

    first  : [10000, 1]   · [1, 128]    (n, j) ↦ Σ_{k<1}   l (n, k) · r (k, j)
    second : [10000, 128] · [128, 128]  (n, j) ↦ Σ_{k<128} l (n, k) · r (k, j)
    third  : [10000, 128] · [5, 128]ᵀ   (n, j) ↦ Σ_{k<128} l (n, k) · r (j, k)

  The third contracts the SECOND axis of both operands: its right operand is the last weight matrix already
  transposed, so the column index `j` of the result is the right operand's row.
  For each product the four coordinate facts say which coordinate of the result index or of the contraction index
  an operand index carries; the sum is then re-indexed from the contraction's one-axis index set to `Fin K`.
-/
import proofs.«160529_g78082505441908_cont_sun_c4_685_6_alg».proof.Proof.Gen.KernelIdeal
import Idealize.ShloMosaic.Lib.ValueIdx
import Idealize.ShloMosaic.PureOps.Ideal.Laws

noncomputable section

namespace Cert.KernelIdeal.Products

open Cert.KernelIdeal Idealize.ShloMosaic Idealize.ShloMosaic.ValueIdx

/-! ## First product: [10000, 1] · [1, 128] -/

theorem lhs1_row (i : S10000x128.Idx) (q : dot_S10000x1_S1x128_S10000x128_1_0_0_1_n_n.contr.Idx) :
    (dot_S10000x1_S1x128_S10000x128_1_0_0_1_n_n.lhsIdx i q 0).val = (i 0).val := by
  unfold DotDims.lhsIdx
  rw [dif_neg (show ¬(0 : Fin S10000x1.rank) ∈ dot_S10000x1_S1x128_S10000x128_1_0_0_1_n_n.lhsBatch by decide),
    dif_pos (show (0 : Fin S10000x1.rank) ∈ dot_S10000x1_S1x128_S10000x128_1_0_0_1_n_n.lhsNonContracting by decide)]
  rfl
theorem lhs1_con (i : S10000x128.Idx) (q : dot_S10000x1_S1x128_S10000x128_1_0_0_1_n_n.contr.Idx) :
    (dot_S10000x1_S1x128_S10000x128_1_0_0_1_n_n.lhsIdx i q 1).val = (q ⟨0, by decide⟩).val :=
  dot_S10000x1_S1x128_S10000x128_1_0_0_1_n_n.lhsIdx_val_of_single rfl i q
theorem rhs1_con (i : S10000x128.Idx) (q : dot_S10000x1_S1x128_S10000x128_1_0_0_1_n_n.contr.Idx) :
    (dot_S10000x1_S1x128_S10000x128_1_0_0_1_n_n.rhsIdx i q 0).val = (q ⟨0, by decide⟩).val :=
  dot_S10000x1_S1x128_S10000x128_1_0_0_1_n_n.rhsIdx_val_of_single rfl i q
theorem rhs1_col (i : S10000x128.Idx) (q : dot_S10000x1_S1x128_S10000x128_1_0_0_1_n_n.contr.Idx) :
    (dot_S10000x1_S1x128_S10000x128_1_0_0_1_n_n.rhsIdx i q 1).val = (i 1).val := by
  unfold DotDims.rhsIdx
  rw [dif_neg (show ¬(1 : Fin S1x128.rank) ∈ dot_S10000x1_S1x128_S10000x128_1_0_0_1_n_n.rhsBatch by decide),
    dif_pos (show (1 : Fin S1x128.rank) ∈ dot_S10000x1_S1x128_S10000x128_1_0_0_1_n_n.rhsNonContracting by decide)]
  rfl

/-- Entry (n, j) of the first product is the one-term sum `Σ_{k<1} l (n, k) · r (k, j)`. -/
theorem product1_apply (l : FVec Ideal S10000x1 .f32) (r : FVec Ideal S1x128 .f32) (n : Fin 10000) (j : Fin 128) :
    matmul dot_S10000x1_S1x128_S10000x128_1_0_0_1_n_n none l r (constant (F := Ideal) S10000x128 .f32 0x00000000#32) (ix2 n j)
      = ∑ k : Fin 1, l (ix2 n k) * r (ix2 k j) := by
  refine (Ideal.matmul_constant_zero_apply dot_S10000x1_S1x128_S10000x128_1_0_0_1_n_n none l r (ix2 n j)).trans ?_
  rw [← Equiv.sum_comp (contrEquiv1 dot_S10000x1_S1x128_S10000x128_1_0_0_1_n_n 1 rfl rfl).symm]
  refine Finset.sum_congr rfl fun k _ => ?_
  have hk := contrEquiv1_symm_val dot_S10000x1_S1x128_S10000x128_1_0_0_1_n_n 1 rfl rfl k
  have el : dot_S10000x1_S1x128_S10000x128_1_0_0_1_n_n.lhsIdx (ix2 n j)
      ((contrEquiv1 dot_S10000x1_S1x128_S10000x128_1_0_0_1_n_n 1 rfl rfl).symm k) = ix2 n k := funext fun a => Fin.ext (by
    match a with
    | ⟨0, _⟩ => exact lhs1_row _ _
    | ⟨1, _⟩ => exact (lhs1_con _ _).trans hk)
  have er : dot_S10000x1_S1x128_S10000x128_1_0_0_1_n_n.rhsIdx (ix2 n j)
      ((contrEquiv1 dot_S10000x1_S1x128_S10000x128_1_0_0_1_n_n 1 rfl rfl).symm k) = ix2 k j := funext fun a => Fin.ext (by
    match a with
    | ⟨0, _⟩ => exact (rhs1_con _ _).trans hk
    | ⟨1, _⟩ => exact rhs1_col _ _)
  rw [el, er]

/-! ## Second product: [10000, 128] · [128, 128] -/

theorem lhs2_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs2_con (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs2_con (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs2_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- Entry (n, j) of the second product is `Σ_{k<128} l (n, k) · r (k, j)`. -/
theorem product2_apply (l : FVec Ideal S10000x128 .f32) (r : FVec Ideal S128x128 .f32) (n : Fin 10000) (j : Fin 128) :
    matmul dot_S10000x128_S128x128_S10000x128_1_0_0_1_n_n none l r (constant (F := Ideal) S10000x128 .f32 0x00000000#32) (ix2 n j)
      = ∑ k : Fin 128, l (ix2 n k) * r (ix2 k j) := by
  refine (Ideal.matmul_constant_zero_apply dot_S10000x128_S128x128_S10000x128_1_0_0_1_n_n none l r (ix2 n j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 n j)
      ((contrEquiv1 dot_S10000x128_S128x128_S10000x128_1_0_0_1_n_n 128 rfl rfl).symm k) = ix2 n k := funext fun a => Fin.ext (by
    match a with
    | ⟨0, _⟩ => exact lhs2_row _ _
    | ⟨1, _⟩ => exact (lhs2_con _ _).trans hk)
  have er : dot_S10000x128_S128x128_S10000x128_1_0_0_1_n_n.rhsIdx (ix2 n j)
      ((contrEquiv1 dot_S10000x128_S128x128_S10000x128_1_0_0_1_n_n 128 rfl rfl).symm k) = ix2 k j := funext fun a => Fin.ext (by
    match a with
    | ⟨0, _⟩ => exact (rhs2_con _ _).trans hk
    | ⟨1, _⟩ => exact rhs2_col _ _)
  rw [el, er]

/-! ## Third product: [10000, 128] · [5, 128]ᵀ -/

theorem lhs3_row (i : S10000x5.Idx) (q : dot_S10000x128_S5x128_S10000x5_1_1_0_0_n_n.contr.Idx) :
    (dot_S10000x128_S5x128_S10000x5_1_1_0_0_n_n.lhsIdx i q 0).val = (i 0).val := by
  unfold DotDims.lhsIdx
  rw [dif_neg (show ¬(0 : Fin S10000x128.rank) ∈ dot_S10000x128_S5x128_S10000x5_1_1_0_0_n_n.lhsBatch by decide),
    dif_pos (show (0 : Fin S10000x128.rank) ∈ dot_S10000x128_S5x128_S10000x5_1_1_0_0_n_n.lhsNonContracting by decide)]
  rfl
theorem lhs3_con (i : S10000x5.Idx) (q : dot_S10000x128_S5x128_S10000x5_1_1_0_0_n_n.contr.Idx) :
    (dot_S10000x128_S5x128_S10000x5_1_1_0_0_n_n.lhsIdx i q 1).val = (q ⟨0, by decide⟩).val :=
  dot_S10000x128_S5x128_S10000x5_1_1_0_0_n_n.lhsIdx_val_of_single rfl i q
theorem rhs3_con (i : S10000x5.Idx) (q : dot_S10000x128_S5x128_S10000x5_1_1_0_0_n_n.contr.Idx) :
    (dot_S10000x128_S5x128_S10000x5_1_1_0_0_n_n.rhsIdx i q 1).val = (q ⟨0, by decide⟩).val :=
  dot_S10000x128_S5x128_S10000x5_1_1_0_0_n_n.rhsIdx_val_of_single rfl i q
theorem rhs3_row (i : S10000x5.Idx) (q : dot_S10000x128_S5x128_S10000x5_1_1_0_0_n_n.contr.Idx) :
    (dot_S10000x128_S5x128_S10000x5_1_1_0_0_n_n.rhsIdx i q 0).val = (i 1).val := by
  unfold DotDims.rhsIdx
  rw [dif_neg (show ¬(0 : Fin S5x128.rank) ∈ dot_S10000x128_S5x128_S10000x5_1_1_0_0_n_n.rhsBatch by decide),
    dif_pos (show (0 : Fin S5x128.rank) ∈ dot_S10000x128_S5x128_S10000x5_1_1_0_0_n_n.rhsNonContracting by decide)]
  rfl

/-- Entry (n, j) of the third product is `Σ_{k<128} l (n, k) · r (j, k)`: the right operand is read by rows. -/
theorem product3_apply (l : FVec Ideal S10000x128 .f32) (r : FVec Ideal S5x128 .f32) (n : Fin 10000) (j : Fin 5) :
    matmul dot_S10000x128_S5x128_S10000x5_1_1_0_0_n_n none l r (constant (F := Ideal) S10000x5 .f32 0x00000000#32) (ix2 n j)
      = ∑ k : Fin 128, l (ix2 n k) * r (ix2 j k) := by
  refine (Ideal.matmul_constant_zero_apply dot_S10000x128_S5x128_S10000x5_1_1_0_0_n_n none l r (ix2 n j)).trans ?_
  rw [← Equiv.sum_comp (contrEquiv1 dot_S10000x128_S5x128_S10000x5_1_1_0_0_n_n 128 rfl rfl).symm]
  refine Finset.sum_congr rfl fun k _ => ?_
  have hk := contrEquiv1_symm_val dot_S10000x128_S5x128_S10000x5_1_1_0_0_n_n 128 rfl rfl k
  have el : dot_S10000x128_S5x128_S10000x5_1_1_0_0_n_n.lhsIdx (ix2 n j)
      ((contrEquiv1 dot_S10000x128_S5x128_S10000x5_1_1_0_0_n_n 128 rfl rfl).symm k) = ix2 n k := funext fun a => Fin.ext (by
    match a with
    | ⟨0, _⟩ => exact lhs3_row _ _
    | ⟨1, _⟩ => exact (lhs3_con _ _).trans hk)
  have er : dot_S10000x128_S5x128_S10000x5_1_1_0_0_n_n.rhsIdx (ix2 n j)
      ((contrEquiv1 dot_S10000x128_S5x128_S10000x5_1_1_0_0_n_n 128 rfl rfl).symm k) = ix2 j k := funext fun a => Fin.ext (by
    match a with
    | ⟨0, _⟩ => exact rhs3_row _ _
    | ⟨1, _⟩ => exact (rhs3_con _ _).trans hk)
  rw [el, er]

end Cert.KernelIdeal.Products

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.KernelBody.lean ====
/-
  What the kernel body stores, as a function of the seven blocks it loads, at the extended reals.

  The body is three affine layers on whole arrays. Reading each operation at one entry:
  • the time vector cast to a 10000 × 1 column has entry (n, 0) = t n;
  • a bias vector cast to a 1 × m row and broadcast down the rows has entry (n, j) = b j;
  • a matrix product into the zero accumulator is the sum over the contracted coordinate (KernelProducts);
  • `max · 0` is entrywise, the float zero word being the extended real 0.
  So the first two activations are `hidden1` and `hidden2` of the network, and the last affine layer, whose right
  operand `x5` is the 5 × 128 TRANSPOSE of the last weight matrix read by rows, is `output` once `x5 (j, k)` is
  written `W3 (k, j)`. The body stores the 5 × 10000 transpose of that; transposing back gives `outputs`.
-/
import proofs.«160529_g78082505441908_cont_sun_c4_685_6_alg».proof.Proof.Gen.KernelIdeal.Skeleton
import proofs.«160529_g78082505441908_cont_sun_c4_685_6_alg».proof.Proof.Network
import proofs.«160529_g78082505441908_cont_sun_c4_685_6_alg».proof.Proof.KernelProducts
import proofs.«160529_g78082505441908_cont_sun_c4_685_6_alg».proof.Proof.LibColumnCast

noncomputable section

namespace Cert.KernelIdeal.Body

open Cert.KernelIdeal Cert.KernelIdeal.Gen Cert.KernelIdeal.Products Cert.Mlp
open Idealize.ShloMosaic Idealize.ShloMosaic.ValueIdx

variable (x0 : FVec Ideal S10000 .f32) (x1 : FVec Ideal S1x128 .f32) (x2 : FVec Ideal S128 .f32)
  (x3 : FVec Ideal S128x128 .f32) (x4 : FVec Ideal S128 .f32) (x5 : FVec Ideal S5x128 .f32) (x6 : FVec Ideal S5 .f32)

/-- The body's first activation: `max (column t · W1 + row b1) 0`. -/
def act1 : FVec Ideal S10000x128 .f32 :=
  maximumf
    (addf
      (matmul dot_S10000x1_S1x128_S10000x128_1_0_0_1_n_n none (shapeCast S10000x1 x0 shapeCasts_S10000_S10000x1) x1
        (constant (F := Ideal) S10000x128 .f32 0x00000000#32))
      (broadcastTo S10000x128 (shapeCast S1x128 x2 shapeCasts_S128_S1x128) broadcasts_S1x128_S10000x128))
    (broadcast S10000x128 (Scalar.ofBits (F := Ideal) .f32 0x00000000#32))

/-- The body's second activation, of any first one `h`: `max (h · W2 + row b2) 0`. -/
def act2 (h : FVec Ideal S10000x128 .f32) : FVec Ideal S10000x128 .f32 :=
  maximumf
    (addf
      (matmul dot_S10000x128_S128x128_S10000x128_1_0_0_1_n_n none h x3 (constant (F := Ideal) S10000x128 .f32 0x00000000#32))
      (broadcastTo S10000x128 (shapeCast S1x128 x4 shapeCasts_S128_S1x128) broadcasts_S1x128_S10000x128))
    (broadcast S10000x128 (Scalar.ofBits (F := Ideal) .f32 0x00000000#32))

/-- The body's last affine layer, of any second activation `h`: `h · x5ᵀ + row b3`. -/
def affine3 (h : FVec Ideal S10000x128 .f32) : FVec Ideal S10000x5 .f32 :=
  addf
    (matmul dot_S10000x128_S5x128_S10000x5_1_1_0_0_n_n none h (shapeCast S5x128 x5 shapeCasts_S5x128_S5x128)
      (constant (F := Ideal) S10000x5 .f32 0x00000000#32))
    (broadcastTo S10000x5 (shapeCast S1x5 x6 shapeCasts_S5_S1x5) broadcasts_S1x5_S10000x5)

/-- The stored value is the transpose of the three layers composed. -/
theorem payload_eq : k0_pay1 (F := Ideal) x0 x1 x2 x3 x4 x5 x6
    = transpose S5x10000 [1, 0] (affine3 x5 x6 (act2 x3 x4 (act1 x0 x1 x2))) transposes_S10000x5_p1_0_S5x10000 := rfl

/-- The float zero word is the extended real zero. -/
theorem zero_word : Scalar.ofBits (F := Ideal) .f32 0x00000000#32 = (0 : EReal) := Ideal.ofBits_zero_f32

theorem act1_apply (n : Fin 10000) (j : Fin 128) : act1 x0 x1 x2 (ix2 n j) = hidden1 x0 x1 x2 n j := by
  unfold act1 hidden1
  rw [maximumf_apply, addf_apply, product1_apply, broadcast_apply, broadcastTo_1b_ab_apply, shapeCast_a_1a_apply, zero_word]
  simp only [shapeCast_a_a1_apply]

/-- The second activation at (n, j), of any first activation. -/
theorem act2_apply (h : FVec Ideal S10000x128 .f32) (n : Fin 10000) (j : Fin 128) :
    act2 x3 x4 h (ix2 n j) = max ((∑ k : Fin 128, h (ix2 n k) * x3 (ix2 k j)) + x4 (ix1 j)) 0 := by
  unfold act2
  rw [maximumf_apply, addf_apply, product2_apply, broadcast_apply, broadcastTo_1b_ab_apply, shapeCast_a_1a_apply, zero_word]

theorem act2_act1_apply (n : Fin 10000) (j : Fin 128) :
    act2 x3 x4 (act1 x0 x1 x2) (ix2 n j) = hidden2 x0 x1 x2 x3 x4 n j := by
  rw [act2_apply]
  unfold hidden2
  simp only [act1_apply]

/-- The last affine layer at (n, j), of any second activation: the right operand is read along its row `j`. -/
theorem affine3_apply (h : FVec Ideal S10000x128 .f32) (n : Fin 10000) (j : Fin 5) :
    affine3 x5 x6 h (ix2 n j) = (∑ k : Fin 128, h (ix2 n k) * x5 (ix2 j k)) + x6 (ix1 j) := by
  unfold affine3
  rw [addf_apply, shapeCast_self, product3_apply, broadcastTo_1b_ab_apply, shapeCast_a_1a_apply]

/-- THE KERNEL'S VALUE: with the last weight matrix handed over transposed, the stored 5 × 10000 array transposed
    back is the network's output array. -/
theorem result_eq (t : FVec Ideal S10000 .f32) (w1 : FVec Ideal S1x128 .f32) (b1 : FVec Ideal S128 .f32)
    (w2 : FVec Ideal S128x128 .f32) (b2 : FVec Ideal S128 .f32) (w3 : FVec Ideal S128x5 .f32) (b3 : FVec Ideal S5 .f32) :
    transpose S10000x5 [1, 0]
        (k0_pay1 (F := Ideal) t w1 b1 w2 b2 (transpose S5x128 [1, 0] w3 transposes_S128x5_S5x128_1_0) b3)
        transposes_S5x10000_S10000x5_1_0
      = outputs t w1 b1 w2 b2 w3 b3 := by
  funext i
  obtain ⟨n, j, rfl⟩ : ∃ (n : Fin 10000) (j : Fin 5), i = ix2 n j := ⟨i 0, i 1, eq_ix2 i⟩
  rw [transpose_ix2_apply, payload_eq, transpose_ix2_apply, affine3_apply, outputs_apply]
  unfold output
  simp only [act2_act1_apply]
  refine congrArg (· + b3 (ix1 j)) (Finset.sum_congr rfl fun k _ => ?_)
  rw [transpose_ix2_apply]

end Cert.KernelIdeal.Body

end
-- ==== Proof.KernelRun.lean ====
/-
  What the kernel's program leaves in its result buffer, read off its frame run.

  The pallas_call has no grid: one point, and every window's block is its whole array (block index 0 on every axis,
  so an element of a block sits at 0 · size + 1 · its own coordinate, its own index). Hence
  • each input block the body loads IS the window's array as the call finds it;
  • the one write-back covers the whole 5 × 10000 result array, which therefore ends holding the stored value
    `k0_pay1` of the seven input arrays;
  • the sixth input array is what the host line before the call wrote: the last weight matrix transposed;
    the other six are argument arrays, untouched by that line;
  • the host line after the call writes the program's result: the 5 × 10000 array transposed.
-/
import proofs.«160529_g78082505441908_cont_sun_c4_685_6_alg».proof.Proof.Gen.KernelIdeal.Frame
import Idealize.ShloMosaic.Lib.Pipeline.Value
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-! ## The blocks are the arrays -/

/-- Every window's block index is 0 on every axis, at the one point. -/
theorem idx_facts : ∀ t : Fin cfg0.N, win0_0.index t (0 : Fin 1) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0 :=
  (by decide +kernel : ∀ t : Fin grid0.N, _)

theorem block0 (c : Dev nD) (t : Fin cfg0.N) : iblk m c 0 t = V m c main_arg0 := by
  obtain ⟨e0, -⟩ := idx_facts t
  funext y
  show V m c main_arg0 (((cfg0.win 0).blk t).view.emb y) = V m c main_arg0 y
  refine congrArg _ (funext fun a => Fin.ext ?_)
  match a with
  | ⟨0, _⟩ => show win0_0.index t (0 : Fin 1) * 10000 + 1 * (y 0).val = (y 0).val; omega

theorem block1 (c : Dev nD) (t : Fin cfg0.N) : iblk m c 1 t = V m c main_arg1 := by
  obtain ⟨-, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 128 + 1 * (y 1).val = (y 1).val; omega

theorem block2 (c : Dev nD) (t : Fin cfg0.N) : iblk m c 2 t = V m c main_arg2 := by
  obtain ⟨-, -, -, e0, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 128 + 1 * (y 0).val = (y 0).val; omega

theorem block3 (c : Dev nD) (t : Fin cfg0.N) : iblk m c 3 t = V m c main_arg3 := by
  obtain ⟨-, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem block4 (c : Dev nD) (t : Fin cfg0.N) : iblk m c 4 t = V m c main_arg4 := by
  obtain ⟨-, -, -, -, -, -, e0, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 1) * 128 + 1 * (y 0).val = (y 0).val; omega

theorem block5 (c : Dev nD) (t : Fin cfg0.N) : iblk m c 5 t = V m c main_v0 := by
  obtain ⟨-, -, -, -, -, -, -, e0, e1, -⟩ := idx_facts t
  funext y
  show V m c main_v0 (((cfg0.win 5).blk t).view.emb y) = V m c main_v0 y
  refine congrArg _ (funext fun a => Fin.ext ?_)
  match a with
  | ⟨0, _⟩ => show win0_5.index t (0 : Fin 2) * 5 + 1 * (y 0).val = (y 0).val; omega
  | ⟨1, _⟩ => show win0_5.index t (1 : Fin 2) * 128 + 1 * (y 1).val = (y 1).val; omega

theorem block6 (c : Dev nD) (t : Fin cfg0.N) : iblk m c 6 t = V m c main_arg6 := by
  obtain ⟨-, -, -, -, -, -, -, -, -, e0, -⟩ := idx_facts t
  funext y
  show V m c main_arg6 (((cfg0.win 6).blk t).view.emb y) = V m c main_arg6 y
  refine congrArg _ (funext fun a => Fin.ext ?_)
  match a with
  | ⟨0, _⟩ => show win0_6.index t (0 : Fin 1) * 5 + 1 * (y 0).val = (y 0).val; omega

/-- An element of the result window's block sits at its own index in the array. -/
theorem emb7 (t : Fin cfg0.N) (y : S5x10000.Idx) : ((cfg0.win 7).blk t).view.emb y = y := by
  obtain ⟨-, -, -, -, -, -, -, -, -, -, e0, e1⟩ := idx_facts t
  funext a; apply Fin.ext
  match a with
  | ⟨0, _⟩ => show win0_7.index t (0 : Fin 2) * 5 + 1 * (y 0).val = (y 0).val; omega
  | ⟨1, _⟩ => show win0_7.index t (1 : Fin 2) * 10000 + 1 * (y 1).val = (y 1).val; omega

/-! ## The result window's array after the call -/

/-- What the body stores, of the seven input arrays as the call finds them. -/
def stored (c : Dev nD) : S5x10000.Idx → Elt F .f32 :=
  k0_pay1 (V m c main_arg0) (V m c main_arg1) (V m c main_arg2) (V m c main_arg3) (V m c main_arg4) (V m c main_v0) (V m c main_arg6)

/-- What the one point writes back is the whole of `stored`. -/
theorem flushed7_eq (c : Dev nD) (t : Fin cfg0.N) :
    (dats m 0 c).flushed 7 t = ((cfg0.win 7).blk t).view.read (Elt F) (stored m c) := by
  show (cfg0.win 7).cut (grid0.coords t) ((dats m 0 c).after 7 t) = _
  rw [after0_7]
  unfold out0_7
  rw [View.canon_unit_zero hz2]
  simp only [View.ld_unit_zero (S := S10000) hz1, View.ld_unit_zero (S := S1x128) hz2, View.ld_unit_zero (S := S128) hz1,
    View.ld_unit_zero (S := S128x128) hz2, View.ld_unit_zero (S := S5x128) hz2, View.ld_unit_zero (S := S5) hz1]
  rw [block0 m c t, block1 m c t, block2 m c t, block3 m c t, block4 m c t, block5 m c t, block6 m c t]
  funext y
  show stored m c y = stored m c (((cfg0.win 7).blk t).view.emb y)
  rw [emb7 t y]

/-- An index of the array is in the point's block iff each coordinate is in the block's range on its axis. -/
theorem mem_blk7 (t : Fin cfg0.N) (i : S5x10000.Idx) :
    i ∈ ((cfg0.win 7).blk t).view.set ↔ ∀ a : Fin 2, win0_7.index t a * S5x10000.size a ≤ (i a).val
      ∧ (i a).val < win0_7.index t a * S5x10000.size a + S5x10000.size a := by
  show i ∈ ((View.whole main_v1).slice (win0_7.rect t)).set ↔ _
  rw [View.set_slice_whole, Rect.mem_set_unit]
  exact Iff.rfl

/-- The one point's block is the whole array. -/
theorem cover7 (i : S5x10000.Idx) : ∃ t : Fin cfg0.N, (cfg0.win 7).flush t = true ∧ i ∈ ((cfg0.win 7).blk t).view.set := by
  refine ⟨t0_0, flush0_7 t0_0, ?_⟩
  obtain ⟨-, -, -, -, -, -, -, -, -, -, e0, e1⟩ := idx_facts t0_0
  rw [mem_blk7]
  intro a
  match a with
  | ⟨0, _⟩ =>
    show win0_7.index t0_0 (0 : Fin 2) * 5 ≤ (i 0).val ∧ (i 0).val < win0_7.index t0_0 (0 : Fin 2) * 5 + 5
    have h : (i 0).val < 5 := (i 0).isLt
    omega
  | ⟨1, _⟩ =>
    show win0_7.index t0_0 (1 : Fin 2) * 10000 ≤ (i 1).val ∧ (i 1).val < win0_7.index t0_0 (1 : Fin 2) * 10000 + 10000
    have h : (i 1).val < 10000 := (i 1).isLt
    omega

/-- The result window's array after the call is `stored`. -/
theorem final7 (c : Dev nD) : (dats m 0 c).arrAt 7 cfg0.N = stored m c :=
  (dats m 0 c).arrAt_eq_of_cover 7 _ (fun t _ => flushed7_eq m c t) cover7

/-! ## The host lines around the call -/

/-- The call's sixth input array is the last weight matrix transposed by the host line before it. -/
theorem V_main_v0 (c : Dev nD) :
    (V m c main_v0 : S5x128.Idx → Elt F .f32)
      = transpose S5x128 [1, 0] (m ((c : Thread nD τ).loc main_arg5)) transposes_S128x5_S5x128_1_0 := by
  show StableHlo.after hostOps0 (fun b => m (c, b)) (Proc.devRef .tc main_v0) = _
  after_results

/-- `stored` in terms of the launch memory. -/
theorem stored_eq (c : Dev nD) : stored m c
    = k0_pay1 (m ((c : Thread nD τ).loc main_arg0)) (m ((c : Thread nD τ).loc main_arg1)) (m ((c : Thread nD τ).loc main_arg2))
        (m ((c : Thread nD τ).loc main_arg3)) (m ((c : Thread nD τ).loc main_arg4))
        (transpose S5x128 [1, 0] (m ((c : Thread nD τ).loc main_arg5)) transposes_S128x5_S5x128_1_0)
        (m ((c : Thread nD τ).loc main_arg6)) := by
  unfold stored
  rw [V_main_arg0 m c, V_main_arg1 m c, V_main_arg2 m c, V_main_arg3 m c, V_main_arg4 m c, V_main_v0 m c, V_main_arg6 m c]

/-- The program's result buffer after the host line that follows the call: the result window's array transposed. -/
theorem tail_eq (c : Dev nD) :
    Pipeline.afterTail₀ cfgs (dats m) 0 (V0 m) [hostOps1] c main_v2
      = transpose S10000x5 [1, 0] ((dats m 0 c).arrAt 7 cfg0.N) transposes_S5x10000_S10000x5_1_0 := by
  unfold Pipeline.afterTail₀
  show StableHlo.after hostOps1 _ (Proc.devRef .tc main_v2) = _
  after_results
  exact congrArg (fun x => transpose S10000x5 [1, 0] x transposes_S5x10000_S10000x5_1_0)
    (Pipeline.withArrays_arr spec0 launch0.win.arr_inj c _ _ 7)

/-! ## The run -/

/-- Every weakly fair execution of the kernel's program terminates with the result buffer at the stored value of
    the argument arrays, transposed, and the argument arrays as launched. -/
theorem run : θ_run defs (onTc (τ := τ) (main (F := F))) ⟨m, fun _ => 0, ρ⟩ fun r => ∀ c : Dev nD,
      r.2.mem ((c : Thread nD τ).loc main_v2)
        = transpose S10000x5 [1, 0]
            (k0_pay1 (m ((c : Thread nD τ).loc main_arg0)) (m ((c : Thread nD τ).loc main_arg1)) (m ((c : Thread nD τ).loc main_arg2))
              (m ((c : Thread nD τ).loc main_arg3)) (m ((c : Thread nD τ).loc main_arg4))
              (transpose S5x128 [1, 0] (m ((c : Thread nD τ).loc main_arg5)) transposes_S128x5_S5x128_1_0)
              (m ((c : Thread nD τ).loc main_arg6)))
            transposes_S5x10000_S10000x5_1_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).2 main_v2 (Pipeline.mem_restRefs_of main_v2 (by decide) (by decide))).trans
        ((tail_eq m c).trans (by rw [final7 m c, stored_eq m c])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.Result

end
-- ==== Proof.ReferenceValue.lean ====
/-
  The reference's result is the network's output array.

  The reference is the same three affine layers written with host operations: the time vector broadcast to a
  10000 × 1 column, `dot_general` contracting the left operand's second axis with the right operand's first, a bias
  vector broadcast to a row and then down the rows, and `max · 0` against a broadcast scalar zero. Its generated
  stage lemmas read every operation at an entry; what is left is to name the operand entries they reach by
  their coordinates — entry (n, j) of a product reaches (n, k) on the left and (k, j) on the right, a bias read at
  (n, j) reaches entry j — and to recognise the float zero word as the extended real 0.
-/
import proofs.«160529_g78082505441908_cont_sun_c4_685_6_alg».proof.Proof.Gen.ReferenceIdeal.Read
import proofs.«160529_g78082505441908_cont_sun_c4_685_6_alg».proof.Proof.Network

noncomputable section

namespace Cert.ReferenceIdeal.RefValue

open Cert.ReferenceIdeal Cert.ReferenceIdeal.Read Cert.Mlp
open Idealize.ShloMosaic Idealize.ShloMosaic.ValueIdx

variable (x0 : FVec Ideal S10000 .f32) (x1 : FVec Ideal S1x128 .f32) (x2 : FVec Ideal S128 .f32)
  (x3 : FVec Ideal S128x128 .f32) (x4 : FVec Ideal S128 .f32) (x5 : FVec Ideal S128x5 .f32) (x6 : FVec Ideal S5 .f32)

/-! ## The operand entries an entry (n, j) reaches -/

/-- The time column at (n, k) is the time vector at n. -/
theorem time_idx (n : Fin 10000) (j : Fin 128) (k : Fin 1) : idx_main_v0 (lidx_main_v1 (ix2 n j) k) = ix1 n :=
  funext fun a => Fin.ext (by match a with | ⟨0, _⟩ => rfl)
theorem w1_idx (n : Fin 10000) (j : Fin 128) (k : Fin 1) : ridx_main_v1 (ix2 n j) k = ix2 k j :=
  funext fun a => Fin.ext (by match a with | ⟨0, _⟩ => rfl | ⟨1, _⟩ => rfl)
theorem b1_idx (n : Fin 10000) (j : Fin 128) : idx_main_v2 (idx_main_v3 (ix2 n j)) = ix1 j :=
  funext fun a => Fin.ext (by match a with | ⟨0, _⟩ => rfl)
theorem h1_idx (n : Fin 10000) (j : Fin 128) (k : Fin 128) : lidx_main_v6 (ix2 n j) k = ix2 n k :=
  funext fun a => Fin.ext (by match a with | ⟨0, _⟩ => rfl | ⟨1, _⟩ => rfl)
theorem w2_idx (n : Fin 10000) (j : Fin 128) (k : Fin 128) : ridx_main_v6 (ix2 n j) k = ix2 k j :=
  funext fun a => Fin.ext (by match a with | ⟨0, _⟩ => rfl | ⟨1, _⟩ => rfl)
theorem b2_idx (n : Fin 10000) (j : Fin 128) : idx_main_v7 (idx_main_v8 (ix2 n j)) = ix1 j :=
  funext fun a => Fin.ext (by match a with | ⟨0, _⟩ => rfl)
theorem h2_idx (n : Fin 10000) (j : Fin 5) (k : Fin 128) : lidx_main_v11 (ix2 n j) k = ix2 n k :=
  funext fun a => Fin.ext (by match a with | ⟨0, _⟩ => rfl | ⟨1, _⟩ => rfl)
theorem w3_idx (n : Fin 10000) (j : Fin 5) (k : Fin 128) : ridx_main_v11 (ix2 n j) k = ix2 k j :=
  funext fun a => Fin.ext (by match a with | ⟨0, _⟩ => rfl | ⟨1, _⟩ => rfl)
theorem b3_idx (n : Fin 10000) (j : Fin 5) : idx_main_v12 (idx_main_v13 (ix2 n j)) = ix1 j :=
  funext fun a => Fin.ext (by match a with | ⟨0, _⟩ => rfl)

/-- The float zero word is the extended real zero. -/
theorem zero_word : FloatOps.ofBits (F := Ideal) .f32 0x00000000#32 = (0 : EReal) := Ideal.ofBits_zero_f32

/-! ## The layers -/

/-- The first `relu`'s result at (n, j) is unit j of the first hidden layer at time n. -/
theorem stage5_apply (n : Fin 10000) (j : Fin 128) : val_main_v5 (F := Ideal) x0 x1 x2 (ix2 n j) = hidden1 x0 x1 x2 n j := by
  rw [val_main_v5_apply, val_main_v4_apply, val_main_v1_apply, val_main_v3_apply, val_main_v2_apply,
    val_main_call0_v0_apply, val_main_call0_cst_apply, b1_idx, zero_word]
  unfold hidden1
  simp only [val_main_v0_apply, time_idx, w1_idx, Ideal.maximumf_def, Ideal.addf_def]

/-- The second `relu`'s result at (n, j) is unit j of the second hidden layer at time n. -/
theorem stage10_apply (n : Fin 10000) (j : Fin 128) :
    val_main_v10 (F := Ideal) x0 x1 x2 x3 x4 (ix2 n j) = hidden2 x0 x1 x2 x3 x4 n j := by
  rw [val_main_v10_apply, val_main_v9_apply, val_main_v6_apply, val_main_v8_apply, val_main_v7_apply,
    val_main_call1_v0_apply, val_main_call1_cst_apply, b2_idx, zero_word]
  unfold hidden2
  simp only [h1_idx, w2_idx, stage5_apply, Ideal.maximumf_def, Ideal.addf_def]

/-- The result at (n, j) is output j at time n. -/
theorem stage14_apply (n : Fin 10000) (j : Fin 5) :
    val_main_v14 (F := Ideal) x0 x1 x2 x3 x4 x5 x6 (ix2 n j) = output x0 x1 x2 x3 x4 x5 x6 n j := by
  rw [val_main_v14_apply, val_main_v11_apply, val_main_v13_apply, val_main_v12_apply, b3_idx]
  unfold output
  simp only [h2_idx, w3_idx, stage10_apply, Ideal.addf_def]

/-- THE REFERENCE'S VALUE: its last stage is the network's output array. -/
theorem result_eq : val_main_v14 (F := Ideal) x0 x1 x2 x3 x4 x5 x6 = outputs x0 x1 x2 x3 x4 x5 x6 := by
  funext i
  obtain ⟨n, j, rfl⟩ : ∃ (n : Fin 10000) (j : Fin 5), i = ix2 n j := ⟨i 0, i 1, eq_ix2 i⟩
  rw [stage14_apply, outputs_apply]

end Cert.ReferenceIdeal.RefValue

end
-- ==== Proof.lean ====
/-
  The kernel and its reference compute one network, so they agree at the extended reals.

  Both programs map a vector of 10000 times and the parameters of three affine layers to the 10000 × 5 array

    output n j = Σ_k hidden2 n k · W3[k, j] + b3 j,   hidden2 = max (hidden1 · W2 + b2) 0,   hidden1 = max (t · W1 + b1) 0

  (Proof/Network.lean). The kernel runs all three layers in one call on whole arrays, is handed the last weight
  matrix transposed and contracts against its rows, and returns its result transposed; the reference writes the
  layers as host matrix products. At the extended reals a matrix product into a zero accumulator is the plain sum
  over the contracted coordinate and a transpose only renames coordinates, so each side's result, read entry by
  entry, is `output` (Proof/KernelBody.lean for the kernel's stored value, Proof/ReferenceValue.lean for the
  reference's last stage). Only the commutative-monoid laws of the extended reals' sum are used: no entry needs to
  be finite, and the precondition is never opened.

  What the kernel's program leaves in its result buffer is read off its frame run (Proof/KernelRun.lean): the call
  has one point whose blocks are the whole arrays, so the result window's array ends at the stored value of the
  input arrays, the host line before the call supplies the transposed weight matrix and the host line after it
  transposes the result. The reference's run is its host operations' composed term.

  The three frames are the programs' runs with the results dropped. The idealized kernel is the printed kernel
  read at the extended reals with no rewrite applied, so there is nothing to preserve.
-/
import proofs.«160529_g78082505441908_cont_sun_c4_685_6_alg».proof.Defs
import proofs.«160529_g78082505441908_cont_sun_c4_685_6_alg».proof.Proof.Gen.Kernel
import proofs.«160529_g78082505441908_cont_sun_c4_685_6_alg».proof.Proof.Gen.Kernel.Skeleton
import proofs.«160529_g78082505441908_cont_sun_c4_685_6_alg».proof.Proof.Gen.Kernel.Launch
import proofs.«160529_g78082505441908_cont_sun_c4_685_6_alg».proof.Proof.Gen.Kernel.Points
import proofs.«160529_g78082505441908_cont_sun_c4_685_6_alg».proof.Proof.Gen.Kernel.Frame
import proofs.«160529_g78082505441908_cont_sun_c4_685_6_alg».proof.Proof.Gen.KernelIdeal
import proofs.«160529_g78082505441908_cont_sun_c4_685_6_alg».proof.Proof.Gen.KernelIdeal.Skeleton
import proofs.«160529_g78082505441908_cont_sun_c4_685_6_alg».proof.Proof.Gen.KernelIdeal.Launch
import proofs.«160529_g78082505441908_cont_sun_c4_685_6_alg».proof.Proof.Gen.KernelIdeal.Points
import proofs.«160529_g78082505441908_cont_sun_c4_685_6_alg».proof.Proof.Gen.KernelIdeal.Frame
import proofs.«160529_g78082505441908_cont_sun_c4_685_6_alg».proof.Proof.Gen.ReferenceIdeal
import proofs.«160529_g78082505441908_cont_sun_c4_685_6_alg».proof.Proof.Gen.Pre_finite_inputs
import proofs.«160529_g78082505441908_cont_sun_c4_685_6_alg».proof.Proof.Gen.ReferenceIdeal.Run
import proofs.«160529_g78082505441908_cont_sun_c4_685_6_alg».proof.Proof.Gen.ReferenceIdeal.Read
import proofs.«160529_g78082505441908_cont_sun_c4_685_6_alg».proof.Proof.KernelBody
import proofs.«160529_g78082505441908_cont_sun_c4_685_6_alg».proof.Proof.KernelRun
import proofs.«160529_g78082505441908_cont_sun_c4_685_6_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read at the extended reals. -/
theorem preserves : Cert.preserves_Kernel_KernelIdeal := trivial

/-- From memories that agree on the seven arguments both programs end with the network's output array of those
    arguments in their result buffers, and with the arguments as launched. -/
theorem algebraic : Cert.algebraic_KernelIdeal_ReferenceIdeal := by
  intro m ρ m' ρ' _ hagree
  refine ⟨fun c => Cert.Mlp.outputs
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩)
      (Cert.KernelIdeal.Result.run (F := Ideal) m ρ)
    exact Cert.KernelIdeal.Body.result_eq _ _ _ _ _ _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.RefValue.result_eq,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
